-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S250000x8x128 : Shape := ⟨3, ![250000, 8, 128]⟩
abbrev S250000x8 : Shape := ⟨2, ![250000, 8]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S250000x8x128 : S_.BroadcastsInDim S250000x8x128 (![] : Fin 0 → Fin S250000x8x128.rank)
  reducesTo_S250000x8x128_S_d0_1_2 : S250000x8x128.ReducesTo [0, 1, 2] S_

variable [Facts]

def fn {F : FTy → Type} [FloatOps F] (main_arg0 : FVec F S200000x128 .f32) (main_arg1 : FVec F S250000x8x128 .f32) (main_arg2 : IVec S250000x8 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S250000x8x128 .f32 := Host.absf main_arg1
  let main_cst_0 : FVec F S_ .f32 := constant S_ .f32 0x7F800000#32
  let main_v5 : FVec F S250000x8x128 .f32 := broadcastInDim S250000x8x128 ![] bcast_S_S250000x8x128 main_cst_0
  let main_v6 : IVec S250000x8x128 1 := cmpf .olt main_v4 main_v5
  let main_c_1 : IVec S_ 1 := constantI S_ 1 1#1
  let main_v7 : IVec S_ 1 := (fun x v => Host.reduce IntOp.andi x v reducesTo_S250000x8x128_S_d0_1_2 h_S_) main_v6 main_c_1
  let main_v8 : IVec S_ 1 := andi main_v3 main_v7
  main_v8
-- ==== Kernel.lean ====
abbrev S200000x128 : Shape := ⟨2, ![200000, 128]⟩
abbrev S250000x8x128 : Shape := ⟨3, ![250000, 8, 128]⟩
abbrev S250000x8 : Shape := ⟨2, ![250000, 8]⟩
abbrev S_ : Shape := ⟨0, ![]⟩
abbrev S250000x8x1 : Shape := ⟨3, ![250000, 8, 1]⟩
abbrev S1 : Shape := ⟨1, ![1]⟩
abbrev S1x1x1 : Shape := ⟨3, ![1, 1, 1]⟩
abbrev S250000x128 : Shape := ⟨2, ![250000, 128]⟩
abbrev S2000x8x128 : Shape := ⟨3, ![2000, 8, 128]⟩
abbrev S2000x128 : Shape := ⟨2, ![2000, 128]⟩

abbrev nBuf : Space → Nat
  | .hbm => 27
  | .vmem => 6
  | .smem => 0
  | _ => 0

abbrev bufTy : (tb : Table) → Fin (tcTables nBuf tb) → BufTy
  | .hbm, ⟨0, _⟩ => ⟨S200000x128, .f32⟩
  | .hbm, ⟨1, _⟩ => ⟨S250000x8x128, .f32⟩
  | .hbm, ⟨2, _⟩ => ⟨S250000x8, .i32⟩
  | .hbm, ⟨3, _⟩ => ⟨S_, .i32⟩
  | .hbm, ⟨4, _⟩ => ⟨S250000x8, .i32⟩
  | .hbm, ⟨5, _⟩ => ⟨S250000x8, .i1⟩
  | .hbm, ⟨6, _⟩ => ⟨S_, .i32⟩
  | .hbm, ⟨7, _⟩ => ⟨S250000x8, .i32⟩
  | .hbm, ⟨8, _⟩ => ⟨S250000x8, .i32⟩
  | .hbm, ⟨9, _⟩ => ⟨S250000x8, .i32⟩
  | .hbm, ⟨10, _⟩ => ⟨S250000x8x1, .i32⟩
  | .hbm, ⟨11, _⟩ => ⟨S1, .i32⟩
  | .hbm, ⟨12, _⟩ => ⟨S_, .i32⟩
  | .hbm, ⟨13, _⟩ => ⟨S250000x8x1, .i32⟩
  | .hbm, ⟨14, _⟩ => ⟨S250000x8x1, .i1⟩
  | .hbm, ⟨15, _⟩ => ⟨S1x1x1, .i32⟩
  | .hbm, ⟨16, _⟩ => ⟨S250000x8x1, .i32⟩
  | .hbm, ⟨17, _⟩ => ⟨S250000x8x1, .i1⟩
  | .hbm, ⟨18, _⟩ => ⟨S250000x8x1, .i1⟩
  | .hbm, ⟨19, _⟩ => ⟨S_, .i1⟩
  | .hbm, ⟨20, _⟩ => ⟨S250000x8, .i1⟩
  | .hbm, ⟨21, _⟩ => ⟨S250000x8x128, .f32⟩
  | .hbm, ⟨22, _⟩ => ⟨S250000x8x128, .i1⟩
  | .hbm, ⟨23, _⟩ => ⟨S_, .f32⟩
  | .hbm, ⟨24, _⟩ => ⟨S250000x8x128, .f32⟩
  | .hbm, ⟨25, _⟩ => ⟨S250000x8x128, .f32⟩
  | .hbm, ⟨26, _⟩ => ⟨S250000x128, .f32⟩
  | .local _ .vmem, ⟨0, _⟩ => ⟨S2000x8x128, .f32⟩
  | .local _ .vmem, ⟨1, _⟩ => ⟨S2000x8x128, .f32⟩
  | .local _ .vmem, ⟨2, _⟩ => ⟨S2000x8x128, .f32⟩
  | .local _ .vmem, ⟨3, _⟩ => ⟨S2000x8x128, .f32⟩
  | .local _ .vmem, ⟨4, _⟩ => ⟨S2000x128, .f32⟩
  | .local _ .vmem, ⟨5, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S250000x8 : S_.BroadcastsInDim S250000x8 (![] : Fin 0 → Fin S250000x8.rank)
  bcast_S250000x8_S250000x8x1_0_1 : S250000x8.BroadcastsInDim S250000x8x1 (![0, 1] : Fin 2 → Fin S250000x8x1.rank)
  bcast_S_S250000x8x1 : S_.BroadcastsInDim S250000x8x1 (![] : Fin 0 → Fin S250000x8x1.rank)
  bcast_S1_S1x1x1_2 : S1.BroadcastsInDim S1x1x1 (![2] : Fin 1 → Fin S1x1x1.rank)
  bcast_S1x1x1_S250000x8x1_0_1_2 : S1x1x1.BroadcastsInDim S250000x8x1 (![0, 1, 2] : Fin 3 → Fin S250000x8x1.rank)
  reducesTo_S250000x8x1_S250000x8_d2 : S250000x8x1.ReducesTo [2] S250000x8
  h_S_ : 0 < S_.numel
  bcast_S250000x8_S250000x8x128_0_1 : S250000x8.BroadcastsInDim S250000x8x128 (![0, 1] : Fin 2 → Fin S250000x8x128.rank)
  bcast_S_S250000x8x128 : S_.BroadcastsInDim S250000x8x128 (![] : Fin 0 → Fin S250000x8x128.rank)
  inb_S2000x8x128_S2000x8x128_0_0_0 : ∀ a, (![0, 0, 0] : Fin 3 → Nat) a + S2000x8x128.size a ≤ S2000x8x128.size a
  h_S2000x8x128 : 0 < S2000x8x128.numel
  shapeCasts_S2000x8x128_S2000x8x128 : S2000x8x128.ShapeCasts S2000x8x128
  reduces_S2000x8x128_S2000x128 : S2000x8x128.Reduces [1] S2000x128
  inb_S2000x128_S2000x128_0_0 : ∀ a, (![0, 0] : Fin 2 → Nat) a + S2000x128.size a ≤ S2000x128.size a
  h_S2000x128 : 0 < S2000x128.numel
  gather_S200000x128_S250000x8x1_S250000x8x128_2_0_n_n_0_2_1128_wf : GatherDims.WF S200000x128 S250000x8x1 S250000x8x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8x128.size a ≤ S250000x8x128.size a
  hwx0_0 : ∀ i : grid0.Coords, EltTy.bits .f32 = 32 ∨ (Rect.block (s := S250000x8x128) S2000x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x8x128.size a ≤ S250000x8x128.size a
  hwx0_1 : ∀ i : grid0.Coords, EltTy.bits .f32 = 32 ∨ (Rect.block (s := S250000x8x128) S2000x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S250000x128.size a
  hwx0_2 : ∀ i : grid0.Coords, EltTy.bits .f32 = 32 ∨ (Rect.block (s := S250000x128) S2000x128.size (cc0_transform_2 i) (hinb0_2 i)).WholeWords (EltTy.packing .f32)

variable [Facts₀]

def gather_S200000x128_S250000x8x1_S250000x8x128_2_0_n_n_0_2_1128 : GatherDims S200000x128 S250000x8x1 S250000x8x128 where
  offsetDims := [2]
  collapsedSliceDims := [0]
  operandBatchingDims := []
  startIndicesBatchingDims := []
  startIndexMap := [0]
  indexVectorDim := 2
  sliceSizes := ![1, 128]
  wf := gather_S200000x128_S250000x8x1_S250000x8x128_2_0_n_n_0_2_1128_wf

abbrev win0_0 : Pipeline.Window sig grid0 :=
  Pipeline.Window.ofSpec (Memref.whole main_v0) S2000x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x128 : Shape := ⟨2, ![200000, 128]⟩
abbrev S250000x8x128 : Shape := ⟨3, ![250000, 8, 128]⟩
abbrev S250000x8 : Shape := ⟨2, ![250000, 8]⟩
abbrev S_ : Shape := ⟨0, ![]⟩
abbrev S250000x8x1 : Shape := ⟨3, ![250000, 8, 1]⟩
abbrev S1 : Shape := ⟨1, ![1]⟩
abbrev S1x1x1 : Shape := ⟨3, ![1, 1, 1]⟩
abbrev S250000x128 : Shape := ⟨2, ![250000, 128]⟩

abbrev nBuf : Space → Nat
  | .hbm => 30
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S250000x8x128, .f32⟩
  | .hbm, ⟨2, _⟩ => ⟨S250000x8, .i32⟩
  | .hbm, ⟨3, _⟩ => ⟨S_, .i32⟩
  | .hbm, ⟨4, _⟩ => ⟨S250000x8, .i32⟩
  | .hbm, ⟨5, _⟩ => ⟨S250000x8, .i1⟩
  | .hbm, ⟨6, _⟩ => ⟨S_, .i32⟩
  | .hbm, ⟨7, _⟩ => ⟨S250000x8, .i32⟩
  | .hbm, ⟨8, _⟩ => ⟨S250000x8, .i32⟩
  | .hbm, ⟨9, _⟩ => ⟨S250000x8, .i32⟩
  | .hbm, ⟨10, _⟩ => ⟨S250000x8x1, .i32⟩
  | .hbm, ⟨11, _⟩ => ⟨S1, .i32⟩
  | .hbm, ⟨12, _⟩ => ⟨S_, .i32⟩
  | .hbm, ⟨13, _⟩ => ⟨S250000x8x1, .i32⟩
  | .hbm, ⟨14, _⟩ => ⟨S250000x8x1, .i1⟩
  | .hbm, ⟨15, _⟩ => ⟨S1x1x1, .i32⟩
  | .hbm, ⟨16, _⟩ => ⟨S250000x8x1, .i32⟩
  | .hbm, ⟨17, _⟩ => ⟨S250000x8x1, .i1⟩
  | .hbm, ⟨18, _⟩ => ⟨S250000x8x1, .i1⟩
  | .hbm, ⟨19, _⟩ => ⟨S_, .i1⟩
  | .hbm, ⟨20, _⟩ => ⟨S250000x8, .i1⟩
  | .hbm, ⟨21, _⟩ => ⟨S250000x8x128, .f32⟩
  | .hbm, ⟨22, _⟩ => ⟨S250000x8x128, .i1⟩
  | .hbm, ⟨23, _⟩ => ⟨S_, .f32⟩
  | .hbm, ⟨24, _⟩ => ⟨S250000x8x128, .f32⟩
  | .hbm, ⟨25, _⟩ => ⟨S250000x8x128, .f32⟩
  | .hbm, ⟨26, _⟩ => ⟨S250000x8x128, .f32⟩
  | .hbm, ⟨27, _⟩ => ⟨S_, .f32⟩
  | .hbm, ⟨28, _⟩ => ⟨S250000x128, .f32⟩
  | .hbm, ⟨29, _⟩ => ⟨S250000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩

abbrev nD : Nat := 1
abbrev τ : Topo := Topo.v7x

variable {F : FTy → Type} [FloatOps F]

class Facts₀ : Prop where
  bcast_S_S250000x8 : S_.BroadcastsInDim S250000x8 (![] : Fin 0 → Fin S250000x8.rank)
  bcast_S250000x8_S250000x8x1_0_1 : S250000x8.BroadcastsInDim S250000x8x1 (![0, 1] : Fin 2 → Fin S250000x8x1.rank)
  bcast_S_S250000x8x1 : S_.BroadcastsInDim S250000x8x1 (![] : Fin 0 → Fin S250000x8x1.rank)
  bcast_S1_S1x1x1_2 : S1.BroadcastsInDim S1x1x1 (![2] : Fin 1 → Fin S1x1x1.rank)
  bcast_S1x1x1_S250000x8x1_0_1_2 : S1x1x1.BroadcastsInDim S250000x8x1 (![0, 1, 2] : Fin 3 → Fin S250000x8x1.rank)
  reducesTo_S250000x8x1_S250000x8_d2 : S250000x8x1.ReducesTo [2] S250000x8
  h_S_ : 0 < S_.numel
  bcast_S250000x8_S250000x8x128_0_1 : S250000x8.BroadcastsInDim S250000x8x128 (![0, 1] : Fin 2 → Fin S250000x8x128.rank)
  bcast_S_S250000x8x128 : S_.BroadcastsInDim S250000x8x128 (![] : Fin 0 → Fin S250000x8x128.rank)
  reducesTo_S250000x8x128_S250000x128_d1 : S250000x8x128.ReducesTo [1] S250000x128
  gather_S200000x128_S250000x8x1_S250000x8x128_2_0_n_n_0_2_1128_wf : GatherDims.WF S200000x128 S250000x8x1 S250000x8x128 [2] [0] [] [0] [] 2 ![1, 128]

variable [Facts₀]

def gather_S200000x128_S250000x8x1_S250000x8x128_2_0_n_n_0_2_1128 : GatherDims S200000x128 S250000x8x1 S250000x8x128 where
  offsetDims := [2]
  collapsedSliceDims := [0]
  operandBatchingDims := []
  startIndicesBatchingDims := []
  startIndexMap := [0]
  indexVectorDim := 2
  sliceSizes := ![1, 128]
  wf := gather_S200000x128_S250000x8x1_S250000x8x128_2_0_n_n_0_2_1128_wf

class Facts : Prop extends Facts₀ where

variable [Facts]
-- ==== Proof.RuleSum.lean ====
/-
  The function both programs compute, and the two ways it is spelt.

  For a rule `r` and a lane `d`, with `g` the gathered rows and `w` the weights, both of shape [rules, 8, 128]:

      out[r, d] = tanh (∑ p < 8, g[r, p, d] · w[r, p, d])

  — the eight period positions of rule `r` multiplied entry by entry and added, then `tanh`, on the extended reals.
  The reference spells the sum as a host reduction over axis 1 started from the constant zero (`hostTail_eq`);
  the kernel spells it, on a block of 2000 rules, as a lane reduction over axis 1 with a zero accumulator
  (`blockTail_eq`). The only laws used are `0 + x = x` and that the index over which each reduction runs, with
  the period coordinate put back between rule and lane, is (r, p, d); no entry has to be finite.
-/
import Idealize.ShloMosaic.PureOps.Ideal.Laws
import Idealize.ShloMosaic.Lib.ValueIdx
import Idealize.ShloMosaic.Lib.Pipeline.Value

noncomputable section

open scoped BigOperators

namespace Cert.RuleSum

open Idealize.ShloMosaic Idealize.ShloMosaic.ValueIdx

/-- The gathered rows and the weights: [250000 rules, 8 period positions, 128 lanes]. -/
abbrev Sg : Shape := ⟨3, ![250000, 8, 128]⟩
/-- The result: [250000 rules, 128 lanes]. -/
abbrev So : Shape := ⟨2, ![250000, 128]⟩
/-- One block of 2000 rules of the gathered rows or of the weights. -/
abbrev Sgb : Shape := ⟨3, ![2000, 8, 128]⟩
/-- One block of 2000 rules of the result. -/
abbrev Sob : Shape := ⟨2, ![2000, 128]⟩
/-- The scalar shape of the sum's initial value. -/
abbrev Ss : Shape := ⟨0, ![]⟩

/-- `tanh` of the sum, over the eight period positions, of gathered row times weight: the whole result array as one
    function of the two [250000, 8, 128] arrays, index by index. -/
def ruleTanh (g w : Sg.Idx → EReal) : So.Idx → EReal :=
  fun i => Ideal.tanh (∑ p : Fin 8, g (ix3 (i 0) p (i 1)) * w (ix3 (i 0) p (i 1)))

theorem ruleTanh_apply (g w : Sg.Idx → EReal) (r : Fin 250000) (d : Fin 128) :
    ruleTanh g w (ix2 r d) = Ideal.tanh (∑ p : Fin 8, g (ix3 r p d) * w (ix3 r p d)) := rfl

/-- THE REFERENCE'S TAIL: the product of the two arrays, added over the period axis by the host's reduction from
    the constant zero, then the host's `tanh`, is `ruleTanh`. The reduction at (r, d) is the initial value plus the
    sum over `p` of the product at the index with `p` inserted on axis 1, which is (r, p, d); the initial value is
    the real number zero. -/
theorem hostTail_eq (g w : FVec Ideal Sg .f32) (h' : Sg.ReducesTo [1] So) (hu : 0 < Ss.numel) :
    Host.tanh (Host.reduceAdd (mulf g w) (constant (F := Ideal) Ss .f32 0x00000000#32) h' hu) = ruleTanh g w := by
  funext i
  obtain ⟨r, d, rfl⟩ : ∃ (r : Fin 250000) (d : Fin 128), i = ix2 r d := ⟨i 0, i 1, eq_ix2 i⟩
  have h : Sg.Reduces [1] So := by decide
  unfold Host.tanh Host.reduceAdd
  simp only [Ideal.hostUnary_tanh_def, Ideal.hostReduceAdd_def]
  rw [Ideal.hostReduceAdd_single h' h, constant_apply, Ideal.ofBits_zero_f32, zero_add, ruleTanh_apply]
  refine congrArg Ideal.tanh (Finset.sum_congr rfl fun p _ => ?_)
  have e : h.lift (ix2 r d) p = ix3 r p d := by
    funext a; match a with | ⟨0, _⟩ => rfl | ⟨1, _⟩ => rfl | ⟨2, _⟩ => rfl
  show g (h.lift (ix2 r d) p) * w (h.lift (ix2 r d) p) = _
  rw [e]
  rfl

/-- THE KERNEL'S BODY on one block, at block coordinates (r, d): the two loaded blocks multiplied (the first through a
    shape cast to its own shape, which changes nothing), added over the period axis by the lane reduction with the zero
    accumulator, then `tanh`. The reduction at (r, d) is the sum over `p` of the product at (r, p, d). -/
theorem blockTail_eq (x0 x1 : FVec Ideal Sgb .f32) (hc : Sgb.ShapeCasts Sgb) (h : Sgb.Reduces [1] Sob)
    (hφ : FKind.Formats .f32) (hacc : (0x00000000#32 : BitVec 32) = FKind.add.neutral .f32 hφ) (r : Fin 2000) (d : Fin 128) :
    FloatOps.tanh (multiReduction .add [1] Sob (mulf (shapeCast Sgb x0 hc) x1) 0x00000000#32 h hφ hacc (ix2 r d))
      = Ideal.tanh (∑ p : Fin 8, x0 (ix3 r p d) * x1 (ix3 r p d)) := by
  show Ideal.tanh _ = _
  refine congrArg Ideal.tanh ((Ideal.multiReduction_add_single _ _ h hφ hacc (ix2 r d)).trans ?_)
  refine Finset.sum_congr rfl fun p _ => ?_
  have e : h.lift (ix2 r d) p = ix3 r p d := by
    funext a; match a with | ⟨0, _⟩ => rfl | ⟨1, _⟩ => rfl | ⟨2, _⟩ => rfl
  show (shapeCast Sgb x0 hc) (h.lift (ix2 r d) p) * x1 (h.lift (ix2 r d) p) = _
  rw [shapeCast_self, e]
  rfl

/-! ## The gather both programs start with

`take(layer_values, indices, axis = 0)`: for every rule `r` and period position `p` the row of `layer_values` that
`indices[r, p]` names. Both programs run the same operations for it, so it is stated once, as one function of the
two argument arrays, and neither proof looks inside it. -/

/-- The table of rows: [200000, 128]. -/
abbrev Slv : Shape := ⟨2, ![200000, 128]⟩
/-- The indices: one per rule and period position, [250000, 8]. -/
abbrev Si : Shape := ⟨2, ![250000, 8]⟩
/-- The indices as a column of start indices, [250000, 8, 1]. -/
abbrev Sc : Shape := ⟨3, ![250000, 8, 1]⟩
abbrev S1 : Shape := ⟨1, ![1]⟩
abbrev S111 : Shape := ⟨3, ![1, 1, 1]⟩

/-- The gather's dimension numbers: one start index per (rule, position), naming a row (axis 0, collapsed); the
    slice is the whole row of 128 lanes, laid on the result's last axis. -/
def rowGather : GatherDims Slv Sc Sg where
  offsetDims := [2]
  collapsedSliceDims := [0]
  operandBatchingDims := []
  startIndicesBatchingDims := []
  startIndexMap := [0]
  indexVectorDim := 2
  sliceSizes := ![1, 128]
  wf := by decide

variable {F : FTy → Type} [FloatOps F]

/-- The gathered rows. A negative index counts from the end (200000 is added to it); the row it then names is
    fetched; and where the index is not within 0 … 199999 the entry is the fill value the operation carries (the
    pattern `0x7FC00000`) instead of a row's entry. -/
def takeRows (lv : FVec F Slv .f32) (idx : IVec Si 32) : FVec F Sg .f32 :=
  let wrapped : IVec Si 32 :=
    select (cmpi .slt idx (broadcastInDim Si ![] (by decide) (constantI Ss 32 0#32)))
      (addi idx (broadcastInDim Si ![] (by decide) (constantI Ss 32 200000#32))) idx
  let col : IVec Sc 32 := broadcastInDim Sc ![0, 1] (by decide) wrapped
  let inRange : IVec Si 1 :=
    Host.reduce IntOp.andi
      (andi (cmpi .sge col (broadcastInDim Sc ![] (by decide) (constantI Ss 32 0#32)))
        (cmpi .sle col (broadcastInDim Sc ![0, 1, 2] (by decide)
          (broadcastInDim S111 ![2] (by decide) (constantI S1 32 199999#32)))))
      (constantI Ss 1 1#1) (show Sc.ReducesTo [2] Si by decide) (show 0 < Ss.numel by decide)
  select (broadcastInDim Sg ![0, 1] (by decide) inRange)
    (Host.gather rowGather lv col)
    (broadcastInDim Sg ![] (by decide) (constant Ss .f32 0x7FC00000#32))

end Cert.RuleSum

end
-- ==== Proof.LibTyped.lean ====
/-
  Typed references: a value carried to a buffer's own type and back.

  A host operation inside a called function is stated over references that carry the type of the tensor value they
  hold; its function is moved to the buffer's own type along the reference's type equation, on the way in and on the
  way out. Reading a chain of such operations therefore leaves, around every intermediate value, a transport to the
  buffer's type followed by the transport back. The two cancel, whatever the reference.
-/
import Idealize.ShloMosaic.Lib.StableHlo

namespace Cert.LibTyped

open Idealize.ShloMosaic Idealize.ShloMosaic.StableHlo

/-- A value moved to a typed reference's buffer type and back is the value: both moves are transports along the one
    equation between the buffer's type and the value's, in opposite directions. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- The same the other way round: a buffer's contents read at the value's type and moved back. -/
theorem toBuf_ofBuf {sig : RefSig} {T : BufTy} {Val : EltTy → Type} (x : TRef sig T) (v : x.ref.ty.Contents Val) :
    x.toBuf (x.ofBuf v) = v := by
  obtain ⟨r, h, h1, h2⟩ := x
  subst h
  rfl

end Cert.LibTyped
-- ==== Proof.RefRun.lean ====
/-
  The reference, run.

  Its program is a straight line of 27 host operations on whole arrays: the 23 of the gather
  `take(layer_values, indices, axis = 0)` — the index wrapped where negative, tested against 0 … 199999, the rows
  fetched, the fill value selected where the test fails —, then the product with the weights, the constant zero,
  the sum over the period axis started from it, and `tanh`. A straight line of host operations terminates with every
  buffer at the fold of the operations over the launch contents; read at the result buffer the fold is the tail
  (product, sum, `tanh`) applied to the gathered rows `takeRows` and the weights, and read at an argument it is the
  argument, which no operation writes.
-/
import proofs.«177380_j30511447671661_1_alg».proof.Proof.Gen.ReferenceIdeal
import proofs.«177380_j30511447671661_1_alg».proof.Proof.RuleSum
import proofs.«177380_j30511447671661_1_alg».proof.Proof.LibTyped
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 27 operations in order, the gather's 23 written out at its call over the call's buffers. -/
abbrev ops : List (HloOp τ sig (Elt F)) :=
  [ TRef.nullary (.of main_call0_c : TRef sig ⟨S_, .i32⟩) (constantI S_ 32 0#32),
    TRef.unary (.of main_call0_c : TRef sig ⟨S_, .i32⟩) (.of main_call0_v0 : TRef sig ⟨S250000x8, .i32⟩) (broadcastInDim S250000x8 ![] bcast_S_S250000x8),
    TRef.binary (.of main_arg2 : TRef sig ⟨S250000x8, .i32⟩) (.of main_call0_v0 : TRef sig ⟨S250000x8, .i32⟩) (.of main_call0_v1 : TRef sig ⟨S250000x8, .i1⟩) (cmpi .slt),
    TRef.nullary (.of main_call0_c_0 : TRef sig ⟨S_, .i32⟩) (constantI S_ 32 200000#32),
    TRef.unary (.of main_call0_c_0 : TRef sig ⟨S_, .i32⟩) (.of main_call0_v2 : TRef sig ⟨S250000x8, .i32⟩) (broadcastInDim S250000x8 ![] bcast_S_S250000x8),
    TRef.binary (.of main_arg2 : TRef sig ⟨S250000x8, .i32⟩) (.of main_call0_v2 : TRef sig ⟨S250000x8, .i32⟩) (.of main_call0_v3 : TRef sig ⟨S250000x8, .i32⟩) addi,
    TRef.ternary (.of main_call0_v1 : TRef sig ⟨S250000x8, .i1⟩) (.of main_call0_v3 : TRef sig ⟨S250000x8, .i32⟩) (.of main_arg2 : TRef sig ⟨S250000x8, .i32⟩) (.of main_call0_v4 : TRef sig ⟨S250000x8, .i32⟩) select,
    TRef.unary main_call0_call0.v0 (.of main_call0_v5 : TRef sig ⟨S250000x8x1, .i32⟩) (broadcastInDim S250000x8x1 ![0, 1] bcast_S250000x8_S250000x8x1_0_1),
    TRef.nullary (.of main_call0_c_1 : TRef sig ⟨S1, .i32⟩) (constantI S1 32 199999#32),
    TRef.nullary (.of main_call0_c_2 : TRef sig ⟨S_, .i32⟩) (constantI S_ 32 0#32),
    TRef.unary (.of main_call0_c_2 : TRef sig ⟨S_, .i32⟩) (.of main_call0_v6 : TRef sig ⟨S250000x8x1, .i32⟩) (broadcastInDim S250000x8x1 ![] bcast_S_S250000x8x1),
    TRef.binary (.of main_call0_v5 : TRef sig ⟨S250000x8x1, .i32⟩) (.of main_call0_v6 : TRef sig ⟨S250000x8x1, .i32⟩) (.of main_call0_v7 : TRef sig ⟨S250000x8x1, .i1⟩) (cmpi .sge),
    TRef.unary (.of main_call0_c_1 : TRef sig ⟨S1, .i32⟩) (.of main_call0_v8 : TRef sig ⟨S1x1x1, .i32⟩) (broadcastInDim S1x1x1 ![2] bcast_S1_S1x1x1_2),
    TRef.unary (.of main_call0_v8 : TRef sig ⟨S1x1x1, .i32⟩) (.of main_call0_v9 : TRef sig ⟨S250000x8x1, .i32⟩) (broadcastInDim S250000x8x1 ![0, 1, 2] bcast_S1x1x1_S250000x8x1_0_1_2),
    TRef.binary (.of main_call0_v5 : TRef sig ⟨S250000x8x1, .i32⟩) (.of main_call0_v9 : TRef sig ⟨S250000x8x1, .i32⟩) (.of main_call0_v10 : TRef sig ⟨S250000x8x1, .i1⟩) (cmpi .sle),
    TRef.binary (.of main_call0_v7 : TRef sig ⟨S250000x8x1, .i1⟩) (.of main_call0_v10 : TRef sig ⟨S250000x8x1, .i1⟩) (.of main_call0_v11 : TRef sig ⟨S250000x8x1, .i1⟩) andi,
    TRef.nullary (.of main_call0_c_3 : TRef sig ⟨S_, .i1⟩) (constantI S_ 1 1#1),
    TRef.binary (.of main_call0_v11 : TRef sig ⟨S250000x8x1, .i1⟩) (.of main_call0_c_3 : TRef sig ⟨S_, .i1⟩) (.of main_call0_v12 : TRef sig ⟨S250000x8, .i1⟩) (fun x v => Host.reduce IntOp.andi x v reducesTo_S250000x8x1_S250000x8_d2 h_S_),
    TRef.binary (.of main_arg0 : TRef sig ⟨S200000x128, .f32⟩) (.of main_call0_v5 : TRef sig ⟨S250000x8x1, .i32⟩) (.of main_call0_v13 : TRef sig ⟨S250000x8x128, .f32⟩) (fun x i => Host.gather gather_S200000x128_S250000x8x1_S250000x8x128_2_0_n_n_0_2_1128 x i),
    TRef.unary (.of main_call0_v12 : TRef sig ⟨S250000x8, .i1⟩) (.of main_call0_v14 : TRef sig ⟨S250000x8x128, .i1⟩) (broadcastInDim S250000x8x128 ![0, 1] bcast_S250000x8_S250000x8x128_0_1),
    TRef.nullary (.of main_call0_cst : TRef sig ⟨S_, .f32⟩) (constant S_ .f32 0x7FC00000#32),
    TRef.unary (.of main_call0_cst : TRef sig ⟨S_, .f32⟩) (.of main_call0_v15 : TRef sig ⟨S250000x8x128, .f32⟩) (broadcastInDim S250000x8x128 ![] bcast_S_S250000x8x128),
    TRef.ternary (.of main_call0_v14 : TRef sig ⟨S250000x8x128, .i1⟩) (.of main_call0_v13 : TRef sig ⟨S250000x8x128, .f32⟩) (.of main_call0_v15 : TRef sig ⟨S250000x8x128, .f32⟩) (.of main_v0 : TRef sig ⟨S250000x8x128, .f32⟩) select,
    binary main_v0 main_arg1 main_v1 (mulf : (⟨S250000x8x128, .f32⟩ : BufTy).Contents (Elt F) → (⟨S250000x8x128, .f32⟩ : BufTy).Contents (Elt F) → (⟨S250000x8x128, .f32⟩ : BufTy).Contents (Elt F)),
    nullary main_cst (constant S_ .f32 0x00000000#32),
    binary main_v1 main_cst main_v2 ((fun x v => Host.reduceAdd x v reducesTo_S250000x8x128_S250000x128_d1 h_S_) : (⟨S250000x8x128, .f32⟩ : BufTy).Contents (Elt F) → (⟨S_, .f32⟩ : BufTy).Contents (Elt F) → (⟨S250000x128, .f32⟩ : BufTy).Contents (Elt F)),
    unary main_v2 main_v3 (Host.tanh : (⟨S250000x128, .f32⟩ : BufTy).Contents (Elt F) → (⟨S250000x128, .f32⟩ : BufTy).Contents (Elt F)) ]

/-- The program is that straight line: the called functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., nullary_bufs_sub .., binary_bufs_sub .., unary_bufs_sub ..⟩

/-- At the table's, the indices' and the gathered rows' buffers the carried type is the buffer's own, so the transport
    is the identity. -/
theorem ofBuf_arg0 (p1 p2 p3) (v : main_arg0.ty.Contents (Elt F)) :
    TRef.ofBuf (TRef.of main_arg0 p1 p2 p3 : TRef sig ⟨S200000x128, .f32⟩) v = v := rfl
theorem ofBuf_arg2 (p1 p2 p3) (v : main_arg2.ty.Contents (Elt F)) :
    TRef.ofBuf (TRef.of main_arg2 p1 p2 p3 : TRef sig ⟨S250000x8, .i32⟩) v = v := rfl
theorem toBuf_v0 (p1 p2 p3) (v : (⟨S250000x8x128, .f32⟩ : BufTy).Contents (Elt F)) :
    TRef.toBuf (TRef.of main_v0 p1 p2 p3 : TRef sig ⟨S250000x8x128, .f32⟩) v = v := rfl

set_option maxHeartbeats 1000000 in
/-- The fold of the 27 operations over any contents, read at the result buffer: the product of the gathered rows and the
    weights, summed over the period axis from zero, under `tanh`. -/
theorem after_result (W : Valuation τ sig (Elt F)) :
    after ops W (main_v3 : DevRef τ sig)
      = Host.tanh (Host.reduceAdd
          (mulf (Cert.RuleSum.takeRows (W (main_arg0 : DevRef τ sig)) (W (main_arg2 : DevRef τ sig))) (W (main_arg1 : DevRef τ sig)))
          (constant S_ .f32 0x00000000#32) reducesTo_S250000x8x128_S250000x128_d1 h_S_) := by
  after_results_simp
  simp only [Cert.LibTyped.ofBuf_toBuf, ofBuf_arg0, ofBuf_arg2, toBuf_v0]
  rfl

set_option maxHeartbeats 1000000 in
/-- No operation writes the table. -/
theorem after_arg0 (W : Valuation τ sig (Elt F)) : after ops W (main_arg0 : DevRef τ sig) = W (main_arg0 : DevRef τ sig) := by
  after_results_simp

set_option maxHeartbeats 1000000 in
/-- No operation writes the weights. -/
theorem after_arg1 (W : Valuation τ sig (Elt F)) : after ops W (main_arg1 : DevRef τ sig) = W (main_arg1 : DevRef τ sig) := by
  after_results_simp

set_option maxHeartbeats 1000000 in
/-- No operation writes the indices. -/
theorem after_arg2 (W : Valuation τ sig (Elt F)) : after ops W (main_arg2 : DevRef τ sig) = W (main_arg2 : DevRef τ sig) := by
  after_results_simp

/-- Every weakly fair execution of the reference terminates with the result buffer at the product of the gathered rows and
    the weights, summed over the period axis from zero, under `tanh`; the three arguments are as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3)
        = Host.tanh (Host.reduceAdd
            (mulf (Cert.RuleSum.takeRows (m ((c.tc : Thread nD τ).loc main_arg0)) (m ((c.tc : Thread nD τ).loc main_arg2)))
              (m ((c.tc : Thread nD τ).loc main_arg1)))
            (constant S_ .f32 0x00000000#32) reducesTo_S250000x8x128_S250000x128_d1 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v3).trans (after_result (launchContents m c)),
      (h c main_arg0).trans (after_arg0 (launchContents m c)),
      (h c main_arg1).trans (after_arg1 (launchContents m c)),
      (h c main_arg2).trans (after_arg2 (launchContents m c))⟩)
    (run_seq scopedRefs_eq scopedSems_eq defs main (fun _ => ops) main_eq (fun _ => ops_sub) m ρ)

end Cert.ReferenceIdeal.RefRun

end
-- ==== Proof.KernelEntry.lean ====
/-
  What the kernel's region finds in its first operand.

  The kernel's program runs the gather `take(layer_values, indices, axis = 0)` on the host before its one region,
  the same 23 operations the reference runs. The buffer they leave — the region's first window's array — therefore
  holds `takeRows` of the two argument arrays as launched: the fold of the 23 operations over the launch memory,
  read at that buffer, is the operations' composed term, and that term is `takeRows` written out.
-/
import proofs.«177380_j30511447671661_1_alg».proof.Proof.Gen.KernelIdeal.Frame
import proofs.«177380_j30511447671661_1_alg».proof.Proof.RuleSum
import proofs.«177380_j30511447671661_1_alg».proof.Proof.LibTyped
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- At the table's, the indices' and the gathered rows' buffers the carried type is the buffer's own, so the transport
    is the identity. -/
theorem ofBuf_arg0 (p1 p2 p3) (v : main_arg0.ty.Contents (Elt F)) :
    TRef.ofBuf (TRef.of main_arg0 p1 p2 p3 : TRef sig ⟨S200000x128, .f32⟩) v = v := rfl
theorem ofBuf_arg2 (p1 p2 p3) (v : main_arg2.ty.Contents (Elt F)) :
    TRef.ofBuf (TRef.of main_arg2 p1 p2 p3 : TRef sig ⟨S250000x8, .i32⟩) v = v := rfl
theorem toBuf_v0 (p1 p2 p3) (v : (⟨S250000x8x128, .f32⟩ : BufTy).Contents (Elt F)) :
    TRef.toBuf (TRef.of main_v0 p1 p2 p3 : TRef sig ⟨S250000x8x128, .f32⟩) v = v := rfl

set_option maxHeartbeats 1000000 in
/-- The fold of the 23 operations over any contents, read at the buffer they end in, is `takeRows` of the contents at the
    table's and at the indices' buffers. -/
theorem after_gather (W : Valuation τ sig (Elt F)) :
    after hostOps0 W (main_v0 : DevRef τ sig)
      = Cert.RuleSum.takeRows (W (main_arg0 : DevRef τ sig)) (W (main_arg2 : DevRef τ sig)) := by
  after_results_simp
  simp only [Cert.LibTyped.ofBuf_toBuf, ofBuf_arg0, ofBuf_arg2, toBuf_v0]
  rfl

/-- The gathered rows, as the region finds them, are `takeRows` of the table and the indices as launched. -/
theorem gathered_eq (c : Dev nD) :
    (V m c main_v0 : S250000x8x128.Idx → Elt F .f32)
      = Cert.RuleSum.takeRows (m ((c : Thread nD τ).loc main_arg0)) (m ((c : Thread nD τ).loc main_arg2)) :=
  after_gather (fun b => m (c, b))

end Cert.KernelIdeal.Entry

end
-- ==== Proof.KernelBody.lean ====
/-
  The kernel's body on one block.

  At a grid point the body loads the two input blocks whole, multiplies them entry by entry, adds over the eight
  period positions and stores `tanh` of the sums as the whole result block. So entry (r, d) of what it leaves is
  `tanh (∑ p < 8, x0[r, p, d] · x1[r, p, d])` of the two loaded blocks `x0`, `x1`.
-/
import proofs.«177380_j30511447671661_1_alg».proof.Proof.Gen.KernelIdeal.Value
import proofs.«177380_j30511447671661_1_alg».proof.Proof.RuleSum

noncomputable section

open scoped BigOperators

namespace Cert.KernelIdeal.Body

open Cert.KernelIdeal Cert.KernelIdeal.Gen Idealize.ShloMosaic Idealize.ShloMosaic.TcCoe Idealize.SL.Sem
open Idealize.ShloMosaic.ValueIdx
open Idealize.ShloMosaic.Pipeline (Dat)

theorem hz3 : (![0, 0, 0] : Fin 3 → Nat) = fun _ => 0 := funext fun a => by fin_cases a <;> rfl

/-- What the body leaves in the result's block, at block coordinates (r, d), from the two input blocks: `tanh` of the
    sum over the period positions of their products at (r, p, d). -/
theorem body_entry (x0 x1 : Vec Ideal S2000x8x128 .f32) (r : Fin 2000) (d : Fin 128) :
    out0_2 x0 x1 (ix2 r d) = Ideal.tanh (∑ p : Fin 8, x0 (ix3 r p d) * x1 (ix3 r p d)) := by
  unfold out0_2
  rw [Value.canon2_eq]
  simp only [View.ld_unit_zero (S := S2000x8x128) hz3]
  have e : Value.ix2_0 (ix2 r d) = ix2 r d := by
    funext a; match a with | ⟨0, _⟩ => rfl | ⟨1, _⟩ => rfl
  show FloatOps.tanh (multiReduction (F := Ideal) .add [1] S2000x128 (mulf (F := Ideal) (shapeCast S2000x8x128 x0 shapeCasts_S2000x8x128_S2000x8x128) x1)
    0x00000000#32 reduces_S2000x8x128_S2000x128 (.inl rfl) rfl (Value.ix2_0 (ix2 r d))) = _
  rw [e]
  exact Cert.RuleSum.blockTail_eq x0 x1 _ _ _ _ r d

end Cert.KernelIdeal.Body

end
-- ==== Proof.KernelGrid.lean ====
/-
  Which rules a grid point is handed.

  The grid has 125 points; at point `t` every window's block index is `t` on the rule axis and 0 on the other axes:
  point `t` is handed rules 2000 t … 2000 t + 1999, all eight period positions, all 128 lanes.
-/
import proofs.«177380_j30511447671661_1_alg».proof.Proof.Gen.KernelIdeal.Launch

namespace Cert.KernelIdeal.Grid

open Cert.KernelIdeal Cert.KernelIdeal.Gen Idealize.ShloMosaic

/-- The printed index maps, decided over the 125 points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

end Cert.KernelIdeal.Grid
-- ==== Proof.KernelBlocks.lean ====
/-
  A block's entries in its array.

  A block's entry sits in its array at block index × block size + the coordinate inside the block, on every axis. With
  the block index (t, 0, 0) of an input window at grid point `t`, entry (r, p, d) of the block [2000, 8, 128] is entry
  (2000 t + r, p, d) of the [250000, 8, 128] array; and with block index (t, 0), entry (r, d) of the result's block
  [2000, 128] sits at (2000 t + r, d) of the [250000, 128] array. Stated for any array contents.
-/
import proofs.«177380_j30511447671661_1_alg».proof.Proof.Gen.KernelIdeal.Frame
import proofs.«177380_j30511447671661_1_alg».proof.Proof.KernelGrid
import Idealize.ShloMosaic.Lib.ValueIdx

noncomputable section

namespace Cert.KernelIdeal.Blocks

open Cert.KernelIdeal Cert.KernelIdeal.Gen Cert.KernelIdeal.Grid Idealize.ShloMosaic Idealize.ShloMosaic.TcCoe Idealize.SL.Sem
open Idealize.ShloMosaic.ValueIdx

/-- Entry (r, p, d) of the first input window's block at point `t`, read off any array `A`, is `A` at (2000 t + r, p, d). -/
theorem read_block0 (A : S250000x8x128.Idx → Elt Ideal .f32) (t : Fin cfg0.N) (r : Fin 2000) (p : Fin 8) (d : Fin 128)
    (k : Fin 250000) (hk : k.val = 2000 * t.val + r.val) :
    ((cfg0.win 0).blk t).view.read (Elt Ideal) A (ix3 r p d) = A (ix3 k p d) := by
  obtain ⟨e0, e1, e2, -⟩ := idx_facts t
  rw [View.read_apply]
  show A _ = A _
  refine congrArg A ?_
  funext a
  apply Fin.ext
  match a with
  | ⟨0, _⟩ => show win0_0.index t (0 : Fin 3) * 2000 + 1 * r.val = k.val; rw [e0, hk]; omega
  | ⟨1, _⟩ => show win0_0.index t (1 : Fin 3) * 8 + 1 * p.val = p.val; rw [e1]; omega
  | ⟨2, _⟩ => show win0_0.index t (2 : Fin 3) * 128 + 1 * d.val = d.val; rw [e2]; omega

/-- The same for the second input window. -/
theorem read_block1 (A : S250000x8x128.Idx → Elt Ideal .f32) (t : Fin cfg0.N) (r : Fin 2000) (p : Fin 8) (d : Fin 128)
    (k : Fin 250000) (hk : k.val = 2000 * t.val + r.val) :
    ((cfg0.win 1).blk t).view.read (Elt Ideal) A (ix3 r p d) = A (ix3 k p d) := by
  obtain ⟨-, -, -, e0, e1, e2, -⟩ := idx_facts t
  rw [View.read_apply]
  show A _ = A _
  refine congrArg A ?_
  funext a
  apply Fin.ext
  match a with
  | ⟨0, _⟩ => show win0_1.index t (0 : Fin 3) * 2000 + 1 * r.val = k.val; rw [e0, hk]; omega
  | ⟨1, _⟩ => show win0_1.index t (1 : Fin 3) * 8 + 1 * p.val = p.val; rw [e1]; omega
  | ⟨2, _⟩ => show win0_1.index t (2 : Fin 3) * 128 + 1 * d.val = d.val; rw [e2]; omega

/-- Entry (r, d) of the result window's block at point `t`, read off any array `B`, is `B` at (2000 t + r, d). -/
theorem read_block2 (B : S250000x128.Idx → Elt Ideal .f32) (t : Fin cfg0.N) (r : Fin 2000) (d : Fin 128)
    (k : Fin 250000) (hk : k.val = 2000 * t.val + r.val) :
    ((cfg0.win 2).blk t).view.read (Elt Ideal) B (ix2 r d) = B (ix2 k d) := by
  obtain ⟨-, -, -, -, -, -, e0, e1⟩ := idx_facts t
  rw [View.read_apply]
  show B _ = B _
  refine congrArg B ?_
  funext a
  apply Fin.ext
  match a with
  | ⟨0, _⟩ => show win0_2.index t (0 : Fin 2) * 2000 + 1 * r.val = k.val; rw [e0, hk]; omega
  | ⟨1, _⟩ => show win0_2.index t (1 : Fin 2) * 128 + 1 * d.val = d.val; rw [e1]; omega

end Cert.KernelIdeal.Blocks

end
-- ==== Proof.KernelRows.lean ====
/-
  The kernel's result array, whole.

  The grid has 125 points. Point `t` is handed rules 2000 t … 2000 t + 1999: of the gathered rows and of the weights
  the block [2000, 8, 128] at block index (t, 0, 0), and it writes back the block [2000, 128] of the result at block
  index (t, 0). On its block the body multiplies the two inputs entry by entry, adds over the eight period
  positions and takes `tanh` (`body_entry`), so entry (r, d) of what point `t` writes back depends on the eight
  entries (2000 t + r, p, d) of each input array and on nothing else: it is entry (2000 t + r, d) of `ruleTanh` of
  the two whole arrays (`writeback_eq`). Rule `k` lies in the block of point `k / 2000` and 125 · 2000 = 250000, so
  the blocks cover the array (`covered`), and the array after the run is `ruleTanh` of the two input arrays as the
  region finds them (`result_eq`): the gathered rows `takeRows` and the weights as launched (`run`).
-/
import proofs.«177380_j30511447671661_1_alg».proof.Proof.Gen.KernelIdeal.Value
import proofs.«177380_j30511447671661_1_alg».proof.Proof.RuleSum
import proofs.«177380_j30511447671661_1_alg».proof.Proof.KernelEntry
import proofs.«177380_j30511447671661_1_alg».proof.Proof.KernelBody
import proofs.«177380_j30511447671661_1_alg».proof.Proof.KernelBlocks
import proofs.«177380_j30511447671661_1_alg».proof.Proof.KernelGrid

noncomputable section

open scoped BigOperators

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

open Cert.KernelIdeal.Body Cert.KernelIdeal.Blocks Cert.KernelIdeal.Grid

variable (m : (ℓ : Loc nD τ sig) → Buf (Elt Ideal) ℓ) (ρ : Dev nD → PrngReg)

/-- The input windows' blocks at point `t` are read off the two input arrays as the region finds them. -/
theorem gathered_block_eq (c : Dev nD) (t : Fin cfg0.N) :
    (iblk m c 0 t : Vec Ideal S2000x8x128 .f32)
      = ((cfg0.win 0).blk t).view.read (Elt Ideal) (V m c main_v0 : S250000x8x128.Idx → Elt Ideal .f32) := rfl
theorem weights_block_eq (c : Dev nD) (t : Fin cfg0.N) :
    (iblk m c 1 t : Vec Ideal S2000x8x128 .f32)
      = ((cfg0.win 1).blk t).view.read (Elt Ideal) (V m c main_arg1 : S250000x8x128.Idx → Elt Ideal .f32) := rfl

/-- WHAT POINT `t` WRITES BACK is block `t` of `ruleTanh` of the two input arrays as the region finds them: at block
    coordinates (r, d) both are `tanh` of the sum over `p` of the products of the two arrays at (2000 t + r, p, d). -/
theorem writeback_eq (c : Dev nD) (t : Fin cfg0.N) :
    (dats m 0 c).flushed 2 t
      = ((cfg0.win 2).blk t).view.read (Elt Ideal)
          (Cert.RuleSum.ruleTanh (V m c main_v0 : S250000x8x128.Idx → Elt Ideal .f32)
            (V m c main_arg1 : S250000x8x128.Idx → Elt Ideal .f32)) := by
  rw [Value.flushed2]
  funext y
  obtain ⟨r, d, rfl⟩ : ∃ (r : Fin 2000) (d : Fin 128), y = ix2 r d := ⟨y 0, y 1, eq_ix2 y⟩
  have ht : t.val < 125 := lt_of_lt_of_eq t.isLt N_0
  have hk : 2000 * t.val + r.val < 250000 := by have := r.isLt; omega
  refine Eq.trans ?_ (read_block2 _ t r d ⟨2000 * t.val + r.val, hk⟩ rfl).symm
  show out0_2 (iblk m c 0 t) (iblk m c 1 t) (ix2 r d) = _
  refine (body_entry (iblk m c 0 t) (iblk m c 1 t) r d).trans ?_
  rw [Cert.RuleSum.ruleTanh_apply, gathered_block_eq, weights_block_eq]
  refine congrArg Ideal.tanh (Finset.sum_congr rfl fun p _ => ?_)
  rw [read_block0 _ t r p d ⟨2000 * t.val + r.val, hk⟩ rfl, read_block1 _ t r p d ⟨2000 * t.val + r.val, hk⟩ rfl]

/-- An index of the result array is in point `t`'s block iff each coordinate is in the block's range on its axis. -/
theorem mem_block (t : Fin cfg0.N) (i : S250000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v1).slice (win0_2.rect t)).set ↔ _
  rw [View.set_slice_whole, Rect.mem_set_unit]
  exact Iff.rfl

/-- Every index of the result array is in some point's block: rule `k` in the block of point `k / 2000`. -/
theorem covered (i : S250000x128.Idx) :
    ∃ t : Fin cfg0.N, (cfg0.win 2).flush t = true ∧ i ∈ ((cfg0.win 2).blk t).view.set := by
  have hi0 : (i 0).val < 250000 := (i 0).isLt
  have hi1 : (i 1).val < 128 := (i 1).isLt
  have hN : cfg0.N = 125 := N_0
  have hq : (i 0).val / 2000 < cfg0.N := by rw [hN]; omega
  obtain ⟨-, -, -, -, -, -, e0, e1⟩ := idx_facts ⟨(i 0).val / 2000, hq⟩
  refine ⟨⟨(i 0).val / 2000, hq⟩, flush0_2 _, ?_⟩
  rw [mem_block]
  intro a
  match a with
  | ⟨0, _⟩ =>
    show win0_2.index ⟨(i 0).val / 2000, hq⟩ (0 : Fin 2) * 2000 ≤ (i 0).val
      ∧ (i 0).val < win0_2.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, hq⟩ (1 : Fin 2) * 128 ≤ (i 1).val
      ∧ (i 1).val < win0_2.index ⟨(i 0).val / 2000, hq⟩ (1 : Fin 2) * 128 + 128
    rw [e1]; omega

/-- THE RESULT ARRAY after the run is `ruleTanh` of the two input arrays as the region finds them. -/
theorem result_eq (c : Dev nD) :
    (dats m 0 c).arrAt 2 cfg0.N
      = Cert.RuleSum.ruleTanh (V m c main_v0 : S250000x8x128.Idx → Elt Ideal .f32)
          (V m c main_arg1 : S250000x8x128.Idx → Elt Ideal .f32) :=
  (dats m 0 c).arrAt_eq_of_cover 2 _ (fun t _ => writeback_eq m c t) covered

/-- The kernel's run, read: the result array at `ruleTanh` of the gathered rows and the weights as launched, the
    arguments unchanged. -/
theorem run : θ_run defs (onTc (τ := τ) (main (F := Ideal))) ⟨m, fun _ => 0, ρ⟩ fun r => ∀ c : Dev nD,
      r.2.mem ((c : Thread nD τ).loc main_v1)
        = Cert.RuleSum.ruleTanh
            (Cert.RuleSum.takeRows (F := Ideal) (m ((c : Thread nD τ).loc main_arg0)) (m ((c : Thread nD τ).loc main_arg2)))
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((result_eq m c).trans
      (congrArg₂ Cert.RuleSum.ruleTanh (Cert.KernelIdeal.Entry.gathered_eq m c) (V_main_arg1 m c))), (h c).2⟩)
    (Value.run_blocks m ρ)

end Cert.KernelIdeal.Rows

end
-- ==== Proof.lean ====
/-
  The kernel against its reference: both compute, for every rule `r` and lane `d`,

      out[r, d] = tanh (∑ p < 8, take(layer_values, indices)[r, p, d] · weights[r, p, d]),

  the rows of `layer_values` named by the rule's eight indices, multiplied entry by entry with the rule's eight
  weight rows, added over the eight positions, under `tanh`.

  Both programs gather with the same host operations, so the gathered rows are one function `takeRows` of the table
  and the indices (Proof/RuleSum.lean) that neither side opens. The reference then multiplies, sums over the period
  axis from zero and applies `tanh` on whole arrays (Proof/RefRun.lean: its run; `hostTail_eq`: that tail is
  `ruleTanh`). The kernel does the same on blocks of 2000 rules over a grid of 125 points; each point writes back
  the matching block of `ruleTanh` of the two whole arrays and the blocks cover the result (Proof/KernelRows.lean).
  On the extended reals the two sums are the same sum of the same eight products — one written with a zero initial
  value, `0 + x = x` —, and `tanh` is one function on both sides; no entry has to be finite, so the precondition
  is not used. The kernel's idealization rewrote nothing, so `preserves` asks nothing. The frames of the two kernel
  programs are the generated ones; the reference's is its run with the result dropped.
-/
import proofs.«177380_j30511447671661_1_alg».proof.Defs
import proofs.«177380_j30511447671661_1_alg».proof.Proof.Gen.Kernel
import proofs.«177380_j30511447671661_1_alg».proof.Proof.Gen.Kernel.Skeleton
import proofs.«177380_j30511447671661_1_alg».proof.Proof.Gen.Kernel.Launch
import proofs.«177380_j30511447671661_1_alg».proof.Proof.Gen.Kernel.Points
import proofs.«177380_j30511447671661_1_alg».proof.Proof.Gen.Kernel.Frame
import proofs.«177380_j30511447671661_1_alg».proof.Proof.Gen.KernelIdeal
import proofs.«177380_j30511447671661_1_alg».proof.Proof.Gen.KernelIdeal.Skeleton
import proofs.«177380_j30511447671661_1_alg».proof.Proof.Gen.KernelIdeal.Launch
import proofs.«177380_j30511447671661_1_alg».proof.Proof.Gen.KernelIdeal.Points
import proofs.«177380_j30511447671661_1_alg».proof.Proof.Gen.KernelIdeal.Frame
import proofs.«177380_j30511447671661_1_alg».proof.Proof.Gen.KernelIdeal.Value
import proofs.«177380_j30511447671661_1_alg».proof.Proof.Gen.ReferenceIdeal
import proofs.«177380_j30511447671661_1_alg».proof.Proof.Gen.Pre_finite_inputs
import proofs.«177380_j30511447671661_1_alg».proof.Proof.RuleSum
import proofs.«177380_j30511447671661_1_alg».proof.Proof.RefRun
import proofs.«177380_j30511447671661_1_alg».proof.Proof.KernelRows
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation of the kernel. -/
theorem preserves : Cert.preserves_Kernel_KernelIdeal := trivial

/-- From memories that agree on the three arguments, the kernel's result array ends at `ruleTanh` of the gathered rows
    and the weights (the blocks of 2000 rules put together), and the reference's at the product summed over the period
    axis under `tanh` of the same gathered rows and weights, which is `ruleTanh` of them. -/
theorem algebraic : Cert.algebraic_KernelIdeal_ReferenceIdeal := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.RuleSum.hostTail_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
